-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) (main_arg1 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  let main_v4 : FVec F S4194304x3 .f32 := Host.absf main_arg1
  let main_cst_0 : FVec F S_ .f32 := constant S_ .f32 0x7F800000#32
  let main_v5 : FVec F S4194304x3 .f32 := broadcastInDim S4194304x3 ![] bcast_S_S4194304x3 main_cst_0
  let main_v6 : IVec S4194304x3 1 := cmpf .olt main_v4 main_v5
  let main_c_1 : IVec S_ 1 := constantI S_ 1 1#1
  let main_v7 : IVec S_ 1 := (fun x v => Host.reduce IntOp.andi x v reducesTo_S4194304x3_S_d0_1 h_S_) main_v6 main_c_1
  let main_v8 : IVec S_ 1 := andi main_v3 main_v7
  main_v8
-- ==== Kernel.lean ====
abbrev S4194304x3 : Shape := ⟨2, ![4194304, 3]⟩
abbrev S3x4194304 : Shape := ⟨2, ![3, 4194304]⟩
abbrev S1x128 : Shape := ⟨2, ![1, 128]⟩
abbrev S3x65536 : Shape := ⟨2, ![3, 65536]⟩
abbrev S1x65536 : Shape := ⟨2, ![1, 65536]⟩
abbrev S65536 : Shape := ⟨1, ![65536]⟩
abbrev S1 : Shape := ⟨1, ![1]⟩
abbrev S1x1 : Shape := ⟨2, ![1, 1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S4194304x3, .f32⟩
  | .hbm, ⟨1, _⟩ => ⟨S4194304x3, .f32⟩
  | .hbm, ⟨2, _⟩ => ⟨S3x4194304, .f32⟩
  | .hbm, ⟨3, _⟩ => ⟨S3x4194304, .f32⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S3x65536, .f32⟩
  | .local _ .vmem, ⟨1, _⟩ => ⟨S3x65536, .f32⟩
  | .local _ .vmem, ⟨2, _⟩ => ⟨S3x65536, .f32⟩
  | .local _ .vmem, ⟨3, _⟩ => ⟨S3x65536, .f32⟩
  | .local _ .vmem, ⟨4, _⟩ => ⟨S1x128, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S4194304x3_S3x4194304_1_0 : S4194304x3.Transposes [1, 0] S3x4194304
  inb_S1x128_S1x128_0_0 : ∀ a, (![0, 0] : Fin 2 → Nat) a + S1x128.size a ≤ S1x128.size a
  h_S1x128 : 0 < S1x128.numel
  inb_S3x65536_S1x65536_0_0 : ∀ a, (![0, 0] : Fin 2 → Nat) a + S1x65536.size a ≤ S3x65536.size a
  h_S1x65536 : 0 < S1x65536.numel
  shapeCasts_S1x65536_S65536 : S1x65536.ShapeCasts S65536
  inb_S3x65536_S1x65536_1_0 : ∀ a, (![1, 0] : Fin 2 → Nat) a + S1x65536.size a ≤ S3x65536.size a
  inb_S3x65536_S1x65536_2_0 : ∀ a, (![2, 0] : Fin 2 → Nat) a + S1x65536.size a ≤ S3x65536.size a
  shapeCasts_S65536_S1x65536 : S65536.ShapeCasts S1x65536
  reduces_S1x65536_S1 : S1x65536.Reduces [1] S1
  shapeCasts_S1_S1x1 : S1.ShapeCasts S1x1
  inpos_S1x1_p0_0 : ∀ a, (![0, 0] : Fin 2 → Nat) a < S1x1.size a
  shapeCasts_S1x128_S1x128 : S1x128.ShapeCasts S1x128
  slices_S1x128_S1x1_0_0 : S1x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x4194304.size a
  hwx0_0 : ∀ i : grid0.Coords, EltTy.bits .f32 = 32 ∨ (Rect.block (s := S3x4194304) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x65536.size a ≤ S3x4194304.size a
  hwx0_1 : ∀ i : grid0.Coords, EltTy.bits .f32 = 32 ∨ (Rect.block (s := S3x4194304) S3x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

abbrev win0_0 : Pipeline.Window sig grid0 :=
  Pipeline.Window.ofSpec (Memref.whole main_v0) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S4194304x1 : Shape := ⟨2, ![4194304, 1]⟩
abbrev S4194304 : Shape := ⟨1, ![4194304]⟩
abbrev S_ : Shape := ⟨0, ![]⟩

abbrev nBuf : Space → Nat
  | .hbm => 140
  | .vmem => 0
  | .smem => 0
  | _ => 0

abbrev hbmTy0_0 (i : Nat) : BufTy := match i % 128 with
  | 0 => ⟨S4194304x3, .f32⟩
  | 1 => ⟨S4194304x3, .f32⟩
  | 2 => ⟨S4194304x1, .f32⟩
  | 3 => ⟨S4194304, .f32⟩
  | 4 => ⟨S4194304x1, .f32⟩
  | 5 => ⟨S4194304, .f32⟩
  | 6 => ⟨S4194304x1, .f32⟩
  | 7 => ⟨S4194304, .f32⟩
  | 8 => ⟨S4194304, .f32⟩
  | 9 => ⟨S_, .f32⟩
  | 10 => ⟨S4194304, .f32⟩
  | 11 => ⟨S4194304, .f32⟩
  | 12 => ⟨S4194304, .f32⟩
  | 13 => ⟨S4194304, .f32⟩
  | 14 => ⟨S_, .f32⟩
  | 15 => ⟨S4194304, .f32⟩
  | 16 => ⟨S4194304, .f32⟩
  | 17 => ⟨S4194304, .f32⟩
  | 18 => ⟨S4194304, .f32⟩
  | 19 => ⟨S4194304, .f32⟩
  | 20 => ⟨S4194304, .f32⟩
  | 21 => ⟨S4194304, .f32⟩
  | 22 => ⟨S4194304, .f32⟩
  | 23 => ⟨S4194304, .f32⟩
  | 24 => ⟨S4194304, .f32⟩
  | 25 => ⟨S4194304, .f32⟩
  | 26 => ⟨S_, .f32⟩
  | 27 => ⟨S4194304, .f32⟩
  | 28 => ⟨S4194304, .f32⟩
  | 29 => ⟨S4194304, .f32⟩
  | 30 => ⟨S4194304, .f32⟩
  | 31 => ⟨S4194304, .f32⟩
  | 32 => ⟨S4194304, .f32⟩
  | 33 => ⟨S4194304, .f32⟩
  | 34 => ⟨S4194304, .f32⟩
  | 35 => ⟨S4194304, .f32⟩
  | 36 => ⟨S4194304, .f32⟩
  | 37 => ⟨S4194304, .f32⟩
  | 38 => ⟨S_, .f32⟩
  | 39 => ⟨S4194304, .f32⟩
  | 40 => ⟨S4194304, .f32⟩
  | 41 => ⟨S4194304, .f32⟩
  | 42 => ⟨S4194304, .f32⟩
  | 43 => ⟨S_, .f32⟩
  | 44 => ⟨S4194304, .f32⟩
  | 45 => ⟨S4194304, .f32⟩
  | 46 => ⟨S4194304, .f32⟩
  | 47 => ⟨S4194304, .f32⟩
  | 48 => ⟨S4194304, .f32⟩
  | 49 => ⟨S4194304, .f32⟩
  | 50 => ⟨S4194304, .f32⟩
  | 51 => ⟨S4194304, .f32⟩
  | 52 => ⟨S_, .f32⟩
  | 53 => ⟨S4194304, .f32⟩
  | 54 => ⟨S4194304, .f32⟩
  | 55 => ⟨S4194304, .f32⟩
  | 56 => ⟨S_, .f32⟩
  | 57 => ⟨S4194304, .f32⟩
  | 58 => ⟨S4194304, .f32⟩
  | 59 => ⟨S4194304, .f32⟩
  | 60 => ⟨S4194304, .f32⟩
  | 61 => ⟨S_, .f32⟩
  | 62 => ⟨S4194304, .f32⟩
  | 63 => ⟨S4194304, .f32⟩
  | 64 => ⟨S4194304, .f32⟩
  | 65 => ⟨S4194304, .f32⟩
  | 66 => ⟨S4194304, .f32⟩
  | 67 => ⟨S4194304, .f32⟩
  | 68 => ⟨S4194304, .f32⟩
  | 69 => ⟨S4194304, .f32⟩
  | 70 => ⟨S4194304, .f32⟩
  | 71 => ⟨S4194304, .f32⟩
  | 72 => ⟨S4194304x1, .f32⟩
  | 73 => ⟨S4194304, .f32⟩
  | 74 => ⟨S4194304x1, .f32⟩
  | 75 => ⟨S4194304, .f32⟩
  | 76 => ⟨S4194304x1, .f32⟩
  | 77 => ⟨S4194304, .f32⟩
  | 78 => ⟨S4194304, .f32⟩
  | 79 => ⟨S4194304, .f32⟩
  | 80 => ⟨S4194304, .f32⟩
  | 81 => ⟨S4194304, .f32⟩
  | 82 => ⟨S4194304, .f32⟩
  | 83 => ⟨S4194304, .f32⟩
  | 84 => ⟨S4194304, .f32⟩
  | 85 => ⟨S4194304, .f32⟩
  | 86 => ⟨S4194304, .f32⟩
  | 87 => ⟨S4194304, .f32⟩
  | 88 => ⟨S4194304, .f32⟩
  | 89 => ⟨S4194304, .f32⟩
  | 90 => ⟨S4194304, .f32⟩
  | 91 => ⟨S4194304, .f32⟩
  | 92 => ⟨S4194304, .f32⟩
  | 93 => ⟨S4194304, .f32⟩
  | 94 => ⟨S4194304, .f32⟩
  | 95 => ⟨S4194304, .f32⟩
  | 96 => ⟨S4194304, .f32⟩
  | 97 => ⟨S4194304, .f32⟩
  | 98 => ⟨S4194304, .f32⟩
  | 99 => ⟨S4194304, .f32⟩
  | 100 => ⟨S_, .f32⟩
  | 101 => ⟨S4194304, .f32⟩
  | 102 => ⟨S4194304, .f32⟩
  | 103 => ⟨S4194304, .f32⟩
  | 104 => ⟨S4194304, .f32⟩
  | 105 => ⟨S_, .f32⟩
  | 106 => ⟨S4194304, .f32⟩
  | 107 => ⟨S4194304, .f32⟩
  | 108 => ⟨S4194304, .f32⟩
  | 109 => ⟨S4194304, .f32⟩
  | 110 => ⟨S4194304, .f32⟩
  | 111 => ⟨S4194304, .f32⟩
  | 112 => ⟨S4194304, .f32⟩
  | 113 => ⟨S4194304, .f32⟩
  | 114 => ⟨S4194304, .f32⟩
  | 115 => ⟨S4194304, .f32⟩
  | 116 => ⟨S4194304, .f32⟩
  | 117 => ⟨S_, .f32⟩
  | 118 => ⟨S4194304, .f32⟩
  | 119 => ⟨S4194304, .f32⟩
  | 120 => ⟨S4194304, .f32⟩
  | 121 => ⟨S4194304, .f32⟩
  | 122 => ⟨S4194304, .f32⟩
  | 123 => ⟨S4194304, .f32⟩
  | 124 => ⟨S4194304, .f32⟩
  | 125 => ⟨S4194304, .f32⟩
  | 126 => ⟨S4194304, .f32⟩
  | 127 => ⟨S4194304, .f32⟩
  | _ => ⟨S4194304x3, .f32⟩

abbrev hbmTy0_1 (i : Nat) : BufTy := match i % 128 with
  | 0 => ⟨S4194304, .f32⟩
  | 1 => ⟨S4194304, .f32⟩
  | 2 => ⟨S_, .f32⟩
  | 3 => ⟨S4194304, .f32⟩
  | 4 => ⟨S4194304, .f32⟩
  | 5 => ⟨S4194304, .f32⟩
  | 6 => ⟨S4194304, .f32⟩
  | 7 => ⟨S4194304, .f32⟩
  | 8 => ⟨S_, .f32⟩
  | 9 => ⟨S_, .f32⟩
  | 10 => ⟨S_, .f32⟩
  | 11 => ⟨S_, .f32⟩
  | _ => ⟨S4194304x3, .f32⟩

abbrev hbmTy (i : Nat) : BufTy := match i / 128 with
  | 0 => hbmTy0_0 i
  | 1 => hbmTy0_1 i
  | _ => ⟨S4194304x3, .f32⟩

abbrev bufTy : (tb : Table) → Fin (tcTables nBuf tb) → BufTy
  | .hbm, ⟨i, _⟩ => hbmTy i
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_7 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_8 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_cst_9 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_10 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_cst_11 : Ref sig .tc := ⟨.hbm, 136, rfl⟩
abbrev main_v122 : Ref sig .tc := ⟨.hbm, 137, rfl⟩
abbrev main_cst_12 : Ref sig .tc := ⟨.hbm, 138, rfl⟩
abbrev main_v123 : Ref sig .tc := ⟨.hbm, 139, rfl⟩

abbrev nD : Nat := 1
abbrev τ : Topo := Topo.v7x

variable {F : FTy → Type} [FloatOps F]

class Facts₀ : Prop where
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S4194304 : S_.BroadcastsInDim S4194304 (![] : Fin 0 → Fin S4194304.rank)
  reducesTo_S4194304_S_d0 : S4194304.ReducesTo [0] S_
  h_S_ : 0 < S_.numel

variable [Facts₀]

class Facts : Prop extends Facts₀ where

variable [Facts]
-- ==== Proof.RowLoss.lean ====
/-
  One row of the loss, over the extended reals.

  A symmetric 2×2 matrix [[a, b], [b, c]] has eigenvalues m − d and m + d with m = (a + c)/2 and
  d = √((a − c)²/4 + b²).  A scalar function f is applied to the matrix through them:
  f(A) = k · (A − (m − d)·I) + f(m − d)·I with k = (f(m + d) − f(m − d)) / max((m + d) − (m − d), ε).
  The row's loss takes S₀ (the prediction) and M (the target), forms T = exp(S₀)^(−1/2), P = T·M·T and
  S = log P, and returns ‖S‖² = S₀₀² + 2·S₀₁² + S₁₁².

  The functions below spell that computation in three stages, each a function of the values the stage
  before hands on, so that a program's intermediate values can be matched to them stage by stage.
-/
import Idealize.ShloMosaic.PureOps.Ideal
import Idealize.ShloMosaic.PureOps.Ideal.Laws

noncomputable section

namespace Cert.RowLoss

open Idealize.ShloMosaic

/-- 1/2, 1/4, 1, 2 and the guard ε ≈ 1e-12, each the exact value of its f32 word. -/
def half : EReal := Ideal.ofBits .f32 0x3F000000#32
def quarter : EReal := Ideal.ofBits .f32 0x3E800000#32
def one : EReal := Ideal.ofBits .f32 0x3F800000#32
def two : EReal := Ideal.ofBits .f32 0x40000000#32
def eps : EReal := Ideal.ofBits .f32 0x2B8CBCCC#32

/-- The mean of the diagonal: m = (a + c)/2. -/
def mid (a c : EReal) : EReal := half * (a + c)
/-- Half the eigenvalue gap: d = √((a − c)²/4 + b²). -/
def disc (a b c : EReal) : EReal := Ideal.sqrt (quarter * ((a - c) * (a - c)) + b * b)
/-- The divided difference of f between the eigenvalues m − d and m + d, the gap guarded below by ε. -/
def slope (f : EReal → EReal) (m d : EReal) : EReal :=
  Ideal.div (f (m + d) - f (m - d)) (max ((m + d) - (m - d)) eps)
/-- A diagonal entry of f(A): k · (x − (m − d)) + f(m − d), for x the matching diagonal entry of A. -/
def onDiag (f : EReal → EReal) (m d x : EReal) : EReal := slope f m d * (x - (m - d)) + f (m - d)
/-- The off-diagonal entry of f(A): k · b. -/
def offDiag (f : EReal → EReal) (m d b : EReal) : EReal := slope f m d * b
/-- w ↦ 1/√w. -/
def invSqrt (w : EReal) : EReal := Ideal.div one (Ideal.sqrt w)

/-! ### Stage 1: E = exp(S₀), and the mean and half-gap of E -/

def e00 (a b c : EReal) : EReal := onDiag Ideal.exp (mid a c) (disc a b c) a
def e01 (a b c : EReal) : EReal := offDiag Ideal.exp (mid a c) (disc a b c) b
def e11 (a b c : EReal) : EReal := onDiag Ideal.exp (mid a c) (disc a b c) c

/-! ### Stage 2: T = E^(−1/2) from E and its mean m and half-gap d; P = T·(M·T); the mean of P -/

def t00 (ea m d : EReal) : EReal := onDiag invSqrt m d ea
def t01 (eb m d : EReal) : EReal := offDiag invSqrt m d eb
def t11 (ec m d : EReal) : EReal := onDiag invSqrt m d ec

/-- P₀₀ = T₀₀·(M₀₀T₀₀ + M₀₁T₀₁) + T₀₁·(M₀₁T₀₀ + M₁₁T₀₁). -/
def p00 (ta tb ma mb mc : EReal) : EReal := ta * (ma * ta + mb * tb) + tb * (mb * ta + mc * tb)
/-- P₀₁ = T₀₀·(M₀₀T₀₁ + M₀₁T₁₁) + T₀₁·(M₀₁T₀₁ + M₁₁T₁₁). -/
def p01 (ta tb tc ma mb mc : EReal) : EReal := ta * (ma * tb + mb * tc) + tb * (mb * tb + mc * tc)
/-- P₁₁ = T₀₁·(M₀₀T₀₁ + M₀₁T₁₁) + T₁₁·(M₀₁T₀₁ + M₁₁T₁₁). -/
def p11 (tb tc ma mb mc : EReal) : EReal := tb * (ma * tb + mb * tc) + tc * (mb * tb + mc * tc)

/-! ### Stage 3: S = log P from P and its mean; the loss ‖S‖² -/

/-- ‖log P‖², with the middle term grouped (2·S₀₁)·S₀₁. -/
def normSq (pa pb pc m : EReal) : EReal :=
  onDiag Ideal.log m (disc pa pb pc) pa * onDiag Ideal.log m (disc pa pb pc) pa
    + two * offDiag Ideal.log m (disc pa pb pc) pb * offDiag Ideal.log m (disc pa pb pc) pb
    + onDiag Ideal.log m (disc pa pb pc) pc * onDiag Ideal.log m (disc pa pb pc) pc

/-- The same with the middle term grouped 2·(S₀₁·S₀₁): multiplication of extended reals is associative. -/
theorem normSq_assoc (pa pb pc m : EReal) :
    normSq pa pb pc m
      = onDiag Ideal.log m (disc pa pb pc) pa * onDiag Ideal.log m (disc pa pb pc) pa
        + two * (offDiag Ideal.log m (disc pa pb pc) pb * offDiag Ideal.log m (disc pa pb pc) pb)
        + onDiag Ideal.log m (disc pa pb pc) pc * onDiag Ideal.log m (disc pa pb pc) pc := by
  unfold normSq
  rw [mul_assoc]

/-- One row's loss from its six inputs: the three stages composed. -/
def rowLoss (a b c ma mb mc : EReal) : EReal :=
  let ea := e00 a b c
  let eb := e01 a b c
  let ec := e11 a b c
  let m2 := mid ea ec
  let d2 := disc ea eb ec
  let ta := t00 ea m2 d2
  let tb := t01 eb m2 d2
  let tc := t11 ec m2 d2
  let pa := p00 ta tb ma mb mc
  let pb := p01 ta tb tc ma mb mc
  let pc := p11 tb tc ma mb mc
  normSq pa pb pc (mid pa pc)

end Cert.RowLoss

end
-- ==== Proof.LibBlockSum.lean ====
/-
  Sums over one long axis, cut into equal blocks.

  A rank-1 index set of extent n is Fin n, and a [1, n] index set is Fin n too, so a sum over either is a sum
  over Fin n.  An axis of extent N = B · n is B consecutive blocks of n, and the sum over Fin N is the double
  sum over (block, position in the block) at the index block · n + position.  At the exact values a lane sum
  of a [1, n] vector cast from a rank-1 vector is the plain sum of that vector, and the host's sum of a rank-1
  array down to a scalar is its initial value plus the plain sum.
-/
import Idealize.ShloMosaic.PureOps.Ideal.Laws
import Idealize.ShloMosaic.Lib.ValueIdx
import Idealize.ShloMosaic.Lib.ValueLayout

noncomputable section

open scoped BigOperators

namespace Cert.LibBlockSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a [1, n] index set is the sum over the second coordinate, the first being 0. -/
theorem sum_idx_1n {M : Type*} [AddCommMonoid M] {n : Nat} (f : (⟨2, ![1, n]⟩ : Shape).Idx → M) :
    ∑ i, f i = ∑ a : Fin n, f (ix2 (0 : Fin 1) a) := by
  rw [sum_idx2, Fin.sum_univ_one]

/-- Position `j` of block `t` on an axis of `B` blocks of `n`. -/
def blockIdx {B n N : Nat} (h : B * n = N) (t : Fin B) (j : Fin n) : Fin N :=
  ⟨t.val * n + j.val, by
    have h1 : t.val * n + j.val < t.val * n + n := Nat.add_lt_add_left j.isLt _
    have h2 : t.val * n + n ≤ B * n := by
      rw [← Nat.succ_mul]; exact Nat.mul_le_mul_right _ t.isLt
    omega⟩

theorem blockIdx_val {B n N : Nat} (h : B * n = N) (t : Fin B) (j : Fin n) :
    (blockIdx h t j).val = t.val * n + j.val := rfl

/-- The sum over an axis of `B` blocks of `n` is the sum over the blocks of the sums inside each. -/
theorem sum_blocks {M : Type*} [AddCommMonoid M] {B n N : Nat} (h : B * n = N) (f : Fin N → M) :
    ∑ r, f r = ∑ t : Fin B, ∑ j : Fin n, f (blockIdx h t j) := by
  subst h
  rw [← Equiv.sum_comp finProdFinEquiv f, Fintype.sum_prod_type]
  refine Finset.sum_congr rfl fun t _ => Finset.sum_congr rfl fun j _ => congrArg f (Fin.ext ?_)
  show j.val + n * t.val = t.val * n + j.val
  rw [Nat.mul_comm, Nat.add_comm]

/-- The lane sum of a rank-1 vector cast to [1, n], cast on to [1, 1] and read at its one entry, is the plain
    sum of the vector's entries. -/
theorem laneSum_eq {n : Nat} (x : FVec Ideal ⟨1, ![n]⟩ .f32)
    (hc : (⟨1, ![n]⟩ : Shape).ShapeCasts ⟨2, ![1, n]⟩)
    (hr : (⟨2, ![1, n]⟩ : Shape).Reduces [1] ⟨1, ![1]⟩) (hφ : FKind.Formats .f32)
    (hacc : (0x00000000#32 : BitVec 32) = FKind.add.neutral .f32 hφ)
    (hc' : (⟨1, ![1]⟩ : Shape).ShapeCasts ⟨2, ![1, 1]⟩) (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, n]⟩ x hc) 0x00000000#32 hr hφ hacc) hc') hp
      = ∑ a : Fin n, x (ix1 a) := by
  unfold extractAt
  have e : (fun a => (⟨(![0, 0] : Fin 2 → Nat) a, hp a⟩ : Fin ((⟨2, ![1, 1]⟩ : Shape).size a))) = ix2 (0 : Fin 1) (0 : Fin 1) :=
    funext fun a => Fin.ext (by match a with | ⟨0, _⟩ => rfl | ⟨1, _⟩ => rfl)
  rw [e, shapeCast_a_1a_apply, Ideal.multiReduction_add_total _ _ _ (fun b => by match b with | ⟨0, _⟩ => rfl), sum_idx_1n]
  exact Finset.sum_congr rfl fun a _ => shapeCast_a_1a_apply x hc 0 a

/-- The host's sum of a rank-1 array down to a scalar, from the initial value `init`, is `init` plus the plain sum. -/
theorem hostSum_eq {n : Nat} (x : (⟨1, ![n]⟩ : Shape).Idx → EReal) (init : EReal)
    (h : (⟨1, ![n]⟩ : Shape).ReducesTo [0] ⟨0, ![]⟩) (j : (⟨0, ![]⟩ : Shape).Idx) :
    Ideal.hostReduceAdd h x init j = init + ∑ a : Fin n, x (ix1 a) := by
  rw [Ideal.hostReduceAdd_total h (fun b => b.elim0), sum_idx1]

end Cert.LibBlockSum

end
-- ==== Proof.KernelRow.lean ====
/-
  The kernel body's arithmetic, read one row at a time.

  The body works on six lane vectors of 65536 entries (three rows of the prediction block, three of the
  target block).  Every operation between its loads and its lane sum is pointwise, so entry j of each
  intermediate vector is the matching stage of one row's loss, evaluated at entry j of the six inputs.
-/
import proofs.«149306_j12687333392690_1_alg».proof.Proof.Gen.KernelIdeal.Skeleton
import proofs.«149306_j12687333392690_1_alg».proof.Proof.RowLoss
import proofs.«149306_j12687333392690_1_alg».proof.Proof.LibBlockSum

noncomputable section

namespace Cert.KernelIdeal.RowValue

open Idealize.ShloMosaic Idealize.ShloMosaic.ValueIdx Cert.KernelIdeal Cert.KernelIdeal.Gen Cert.RowLoss

/-! ### Stage 1: the entries of E = exp(S₀), its mean and its half-gap -/

section Stage1
variable (v3 v5 v7 : Vec Ideal S1x65536 .f32) (j : S65536.Idx)

theorem pay11_apply : k0_pay11 v3 v5 v7 j = e00 (k0_pay3 v3 j) (k0_pay4 v5 j) (k0_pay5 v7 j) := rfl
theorem pay12_apply : k0_pay12 v3 v5 v7 j = e01 (k0_pay3 v3 j) (k0_pay4 v5 j) (k0_pay5 v7 j) := rfl
theorem pay13_apply : k0_pay13 v3 v5 v7 j = e11 (k0_pay3 v3 j) (k0_pay4 v5 j) (k0_pay5 v7 j) := rfl
theorem pay14_apply : k0_pay14 v3 v5 v7 j = mid (k0_pay11 v3 v5 v7 j) (k0_pay13 v3 v5 v7 j) := rfl
theorem pay15_apply : k0_pay15 v3 v5 v7 j
    = disc (k0_pay11 v3 v5 v7 j) (k0_pay12 v3 v5 v7 j) (k0_pay13 v3 v5 v7 j) := rfl

end Stage1

/-! ### Stage 2: T = E^(−1/2), the product P = T·(M·T) and its mean -/

section Stage2
variable (v30 v31 v34 v37 v44 : FVec Ideal S65536 .f32) (v65 v67 v69 : Vec Ideal S1x65536 .f32) (j : S65536.Idx)

theorem pay19_apply : k0_pay19 v30 v37 v44 j = t00 (v30 j) (v37 j) (v44 j) := rfl
theorem pay20_apply : k0_pay20 v31 v37 v44 j = t01 (v31 j) (v37 j) (v44 j) := rfl
theorem pay21_apply : k0_pay21 v34 v37 v44 j = t11 (v34 j) (v37 j) (v44 j) := rfl

theorem pay27_apply : k0_pay27 v30 v31 v37 v44 v65 v67 v69 j
    = p00 (t00 (v30 j) (v37 j) (v44 j)) (t01 (v31 j) (v37 j) (v44 j))
        (k0_pay22 v65 j) (k0_pay23 v67 j) (k0_pay24 v69 j) := rfl
theorem pay28_apply : k0_pay28 v30 v31 v34 v37 v44 v65 v67 v69 j
    = p01 (t00 (v30 j) (v37 j) (v44 j)) (t01 (v31 j) (v37 j) (v44 j)) (t11 (v34 j) (v37 j) (v44 j))
        (k0_pay22 v65 j) (k0_pay23 v67 j) (k0_pay24 v69 j) := rfl
theorem pay29_apply : k0_pay29 v31 v34 v37 v44 v65 v67 v69 j
    = p11 (t01 (v31 j) (v37 j) (v44 j)) (t11 (v34 j) (v37 j) (v44 j))
        (k0_pay22 v65 j) (k0_pay23 v67 j) (k0_pay24 v69 j) := rfl
theorem pay30_apply : k0_pay30 v30 v31 v34 v37 v44 v65 v67 v69 j
    = mid (k0_pay27 v30 v31 v37 v44 v65 v67 v69 j) (k0_pay29 v31 v34 v37 v44 v65 v67 v69 j) := rfl

end Stage2

end Cert.KernelIdeal.RowValue

end
-- ==== Proof.KernelPoint.lean ====
/-
  What the kernel body leaves in its accumulator at one grid point.

  At a grid point the body holds two [3, 65536] blocks (the prediction's and the target's: row k of a block
  is column k of 65536 consecutive rows of the argument) and the [1, 128] accumulator.  It loads the six
  rows, computes one loss per lane, sums the lanes, and stores the accumulator plus that sum in every lane.
  At the first point it stores zeros into the accumulator first.  So after the body the accumulator holds,
  in every lane, what it held before (zero at the first point) plus the block's loss: the sum over the
  block's 65536 rows of the row loss.
-/
import proofs.«149306_j12687333392690_1_alg».proof.Proof.Gen.KernelIdeal.Frame
import proofs.«149306_j12687333392690_1_alg».proof.Proof.KernelRow
import Idealize.ShloMosaic.Lib.Pipeline.Value
import Idealize.ShloMosaic.Lib.Tactic

noncomputable section

open scoped BigOperators

namespace Cert.KernelIdeal.PointValue

open Idealize.ShloMosaic Idealize.ShloMosaic.TcCoe Idealize.ShloMosaic.ValueIdx Idealize.SL.Sem
open Cert.KernelIdeal Cert.KernelIdeal.Gen Cert.KernelIdeal.RowValue Cert.RowLoss Cert.LibBlockSum

theorem hz : (![0, 0] : Fin 2 → Nat) = fun _ => 0 := funext fun a => by fin_cases a <;> rfl

/-! ### A row of a block, as the body reads it -/

/-- Row `k` of a [3, 65536] block loaded as a [1, 65536] rectangle and cast to a lane vector reads, at lane `j`,
    the block at (k, j). -/
theorem cast_ld (x : Vec Ideal S3x65536 .f32) (k : Fin 3) (off : Fin 2 → Nat) (h0 : off 0 = k.val) (h1 : off 1 = 0)
    (inb : ∀ a, off a + S1x65536.size a ≤ S3x65536.size a) (j : Fin 65536) :
    shapeCast S65536 (View.ld x (Rect.unit (s := S3x65536) off S1x65536.size inb)) shapeCasts_S1x65536_S65536 (ix1 j)
      = x (ix2 k j) := by
  rw [shapeCast_1a_a_apply]
  show x _ = x _
  refine congrArg x (funext fun a => Fin.ext ?_)
  match a with
  | ⟨0, _⟩ => show off 0 + 1 * 0 = k.val; omega
  | ⟨1, _⟩ => show off 1 + 1 * j.val = j.val; omega

/-- The six rows the body loads from its two blocks. -/
abbrev ld0 (x : Vec Ideal S3x65536 .f32) : Vec Ideal S1x65536 .f32 :=
  View.ld x (Rect.unit (s := S3x65536) ![0, 0] S1x65536.size inb_S3x65536_S1x65536_0_0)
abbrev ld1 (x : Vec Ideal S3x65536 .f32) : Vec Ideal S1x65536 .f32 :=
  View.ld x (Rect.unit (s := S3x65536) ![1, 0] S1x65536.size inb_S3x65536_S1x65536_1_0)
abbrev ld2 (x : Vec Ideal S3x65536 .f32) : Vec Ideal S1x65536 .f32 :=
  View.ld x (Rect.unit (s := S3x65536) ![2, 0] S1x65536.size inb_S3x65536_S1x65536_2_0)

/-! ### The body's stored value -/

/-- What the body stores, from the six loaded rows and the accumulator as loaded. -/
def bodyOf (r0 r1 r2 s0 s1 s2 : Vec Ideal S1x65536 .f32) (acc : Vec Ideal S1x128 .f32) : Vec Ideal S1x128 .f32 :=
  k0_pay1 (k0_pay27 (k0_pay11 r0 r1 r2) (k0_pay12 r0 r1 r2) (k0_pay14 r0 r1 r2) (k0_pay15 r0 r1 r2) s0 s1 s2)
    (k0_pay28 (k0_pay11 r0 r1 r2) (k0_pay12 r0 r1 r2) (k0_pay13 r0 r1 r2) (k0_pay14 r0 r1 r2) (k0_pay15 r0 r1 r2) s0 s1 s2)
    (k0_pay29 (k0_pay12 r0 r1 r2) (k0_pay13 r0 r1 r2) (k0_pay14 r0 r1 r2) (k0_pay15 r0 r1 r2) s0 s1 s2)
    (k0_pay30 (k0_pay11 r0 r1 r2) (k0_pay12 r0 r1 r2) (k0_pay13 r0 r1 r2) (k0_pay14 r0 r1 r2) (k0_pay15 r0 r1 r2) s0 s1 s2)
    acc

/-- The last stage, as operations on whole vectors: the accumulator plus the splat of the lane sum of ‖log P‖². -/
theorem pay1_split (v85 v88 v91 v94 : FVec Ideal S65536 .f32) (v129 : Vec Ideal S1x128 .f32) :
    k0_pay1 v85 v88 v91 v94 v129
      = addf (shapeCast S1x128 v129 shapeCasts_S1x128_S1x128)
          (broadcast S1x128 (extractAt ![0, 0] (shapeCast S1x1 (multiReduction .add [1] S1
            (shapeCast S1x65536 (fun j => normSq (v85 j) (v88 j) (v91 j) (v94 j) : FVec Ideal S65536 .f32) shapeCasts_S65536_S1x65536)
            0x00000000#32 reduces_S1x65536_S1 (.inl rfl) rfl) shapeCasts_S1_S1x1) inpos_S1x1_p0_0)) := rfl

/-- The stored value is the accumulator plus, in every lane, the sum over the lanes of ‖log P‖². -/
theorem pay1_eq (v85 v88 v91 v94 : FVec Ideal S65536 .f32) (v129 : Vec Ideal S1x128 .f32) :
    k0_pay1 v85 v88 v91 v94 v129
      = fun y => v129 y + ∑ j : Fin 65536, normSq (v85 (ix1 j)) (v88 (ix1 j)) (v91 (ix1 j)) (v94 (ix1 j)) := by
  rw [pay1_split, shapeCast_self]
  refine (congrArg (fun s => addf v129 (broadcast S1x128 s)) (laneSum_eq (n := 65536) _ shapeCasts_S65536_S1x65536
    reduces_S1x65536_S1 (.inl rfl) rfl shapeCasts_S1_S1x1 inpos_S1x1_p0_0)).trans ?_
  funext y
  simp only [addf, broadcast, Ideal.addf_def]

/-- One lane of the three stages composed is the row loss of that lane's six inputs. -/
theorem row_eq (r0 r1 r2 s0 s1 s2 : Vec Ideal S1x65536 .f32) (j : S65536.Idx) :
    normSq
      (k0_pay27 (k0_pay11 r0 r1 r2) (k0_pay12 r0 r1 r2) (k0_pay14 r0 r1 r2) (k0_pay15 r0 r1 r2) s0 s1 s2 j)
      (k0_pay28 (k0_pay11 r0 r1 r2) (k0_pay12 r0 r1 r2) (k0_pay13 r0 r1 r2) (k0_pay14 r0 r1 r2) (k0_pay15 r0 r1 r2) s0 s1 s2 j)
      (k0_pay29 (k0_pay12 r0 r1 r2) (k0_pay13 r0 r1 r2) (k0_pay14 r0 r1 r2) (k0_pay15 r0 r1 r2) s0 s1 s2 j)
      (k0_pay30 (k0_pay11 r0 r1 r2) (k0_pay12 r0 r1 r2) (k0_pay13 r0 r1 r2) (k0_pay14 r0 r1 r2) (k0_pay15 r0 r1 r2) s0 s1 s2 j)
    = rowLoss (k0_pay3 r0 j) (k0_pay4 r1 j) (k0_pay5 r2 j) (k0_pay22 s0 j) (k0_pay23 s1 j) (k0_pay24 s2 j) := by
  simp only [pay27_apply, pay28_apply, pay29_apply, pay30_apply, pay14_apply, pay15_apply, pay11_apply, pay12_apply,
    pay13_apply, rowLoss]

/-- One block's loss: the sum over its 65536 rows of the row loss of the row's six entries. -/
def blockLoss (x0 x1 : Vec Ideal S3x65536 .f32) : EReal :=
  ∑ j : Fin 65536, rowLoss (x0 (ix2 0 j)) (x0 (ix2 1 j)) (x0 (ix2 2 j)) (x1 (ix2 0 j)) (x1 (ix2 1 j)) (x1 (ix2 2 j))

/-- The body adds the block's loss to every lane of the accumulator. -/
theorem bodyOf_eq (x0 x1 : Vec Ideal S3x65536 .f32) (acc : Vec Ideal S1x128 .f32) :
    bodyOf (ld0 x0) (ld1 x0) (ld2 x0) (ld0 x1) (ld1 x1) (ld2 x1) acc = fun y => acc y + blockLoss x0 x1 := by
  unfold bodyOf
  rw [pay1_eq]
  funext y
  refine congrArg (acc y + ·) (Finset.sum_congr rfl fun j _ => ?_)
  rw [row_eq]
  unfold k0_pay3 k0_pay4 k0_pay5 k0_pay22 k0_pay23 k0_pay24
  rw [cast_ld x0 0 _ rfl rfl, cast_ld x0 1 _ rfl rfl, cast_ld x0 2 _ rfl rfl,
    cast_ld x1 0 _ rfl rfl, cast_ld x1 1 _ rfl rfl, cast_ld x1 2 _ rfl rfl]

/-! ### The two cases of the body -/

/-- A point after the first: the accumulator `xo` goes to `xo` plus the block's loss. -/
theorem out_B (c : Dev nD) (i : grid0.Coords) (a1 : Memref sig .tc .vmem S3x65536 .f32) (h1 : a1.IsWhole)
    (a2 : Memref sig .tc .vmem S3x65536 .f32) (h2 : a2.IsWhole) (a3 : Memref sig .tc .vmem S1x128 .f32) (h3 : a3.IsWhole)
    (hc : ¬cond0_0 i) (x0 x1 : Vec Ideal S3x65536 .f32) (xo : Vec Ideal S1x128 .f32) :
    out0_B_2 c i a1 h1 a2 h2 a3 h3 hc x0 x1 xo = fun y => xo y + blockLoss x0 x1 := by
  unfold out0_B_2
  rw [View.read_writes_eq_canon _ _ _ (cover0_B_2 c i a1 h1 a2 h2 a3 h3 hc x0 x1 xo)]
  unfold kernelRun0_B
  dsimp only
  sl_unfold_words
  rw [View.canon_unit_zero (S := S1x128) hz]
  simp only [View.readAt_eq_ld, h1.read_unread, h2.read_unread, h3.read_unread, View.ld_unit_zero (S := S1x128) hz]
  exact bodyOf_eq x0 x1 xo

/-- The first point: the accumulator is zeroed, read back, and left at zero plus the block's loss. -/
theorem out_A (c : Dev nD) (i : grid0.Coords) (a1 : Memref sig .tc .vmem S3x65536 .f32) (h1 : a1.IsWhole)
    (a2 : Memref sig .tc .vmem S3x65536 .f32) (h2 : a2.IsWhole) (a3 : Memref sig .tc .vmem S1x128 .f32) (h3 : a3.IsWhole)
    (hc : cond0_0 i) (x0 x1 : Vec Ideal S3x65536 .f32) :
    out0_A_2 c i a1 h1 a2 h2 a3 h3 hc x0 x1 = fun _ => blockLoss x0 x1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x128) hz, View.readCov_unit_zero (S := S1x128) _ hz]
  simp only [View.readAt_eq_ld, h1.read_unread, h2.read_unread]
  have e := bodyOf_eq x0 x1 (k0_pay2 (F := Ideal))
  unfold bodyOf at e
  rw [e]
  funext y
  simp only [k0_pay2, broadcast, Ideal.ofBits_def, Ideal.ofBits_zero_f32, zero_add]

end Cert.KernelIdeal.PointValue

end
-- ==== Proof.KernelSum.lean ====
/-
  The kernel's result: the accumulator after the last grid point, through the host's last lines.

  After grid point n the accumulator holds, in every lane, the sum of the losses of blocks 0 … n (by induction on
  the point: the first point leaves block 0's loss, every later point adds its block's).  The accumulator is
  written back once, after the last of the 64 points, and its one block is the whole [1, 128] result array.  The
  host then takes entry (0, 0), drops the unit axes and divides by the number of rows.
-/
import proofs.«149306_j12687333392690_1_alg».proof.Proof.Gen.KernelIdeal.Frame
import proofs.«149306_j12687333392690_1_alg».proof.Proof.KernelPoint
import Idealize.ShloMosaic.Lib.Pipeline.Value
import Idealize.ShloMosaic.Lib.StableHlo.Run
import Idealize.ShloMosaic.Lib.Tactic

noncomputable section

open scoped BigOperators

namespace Cert.KernelIdeal.SumValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.PointValue Cert.RowLoss

variable (m : (ℓ : Loc nD τ sig) → Buf (Elt Ideal) ℓ) (ρ : Dev nD → PrngReg)

/-- The loss of block `t` of the two transposed arguments as the region finds them (0 past the grid). -/
def blockAt (c : Dev nD) (t : ℕ) : EReal :=
  if h : t < cfg0.N then blockLoss (iblk m c 0 ⟨t, h⟩) (iblk m c 1 ⟨t, h⟩) else 0

/-- The accumulator after a point depends on the point's number only. -/
theorem outsAt_congr (c : Dev nD) (k n : ℕ) (e : k = n) (hk : k < cfg0.N) (hn : n < cfg0.N) :
    outsAt0 m c k hk = outsAt0 m c n hn := by
  subst e; rfl

/-- After point `n` every lane of the accumulator holds the sum of the losses of blocks 0 … n. -/
theorem outsAt_eq (c : Dev nD) : ∀ (n : ℕ) (h : n < cfg0.N),
    outsAt0 m c n h = fun _ => ∑ s ∈ Finset.range (n + 1), blockAt m c s
  | 0, h => by
    refine ((outsAt0_A m c ⟨0, h⟩ rfl).trans (out_A ..)).trans (funext fun _ => ?_)
    rw [Finset.sum_range_one]
    unfold blockAt
    rw [dif_pos h]
  | n + 1, h => by
    have hN : cfg0.N = 64 := N_0
    have hB : ¬(⟨n + 1, h⟩ : Fin cfg0.N).val % 64 = 0 := by dsimp only; omega
    rw [outsAt0_B m c ⟨n + 1, h⟩ hB, out_B,
      outsAt_congr m c _ n (Nat.add_sub_cancel n 1) _ (Nat.lt_of_succ_lt h), outsAt_eq c n]
    funext y
    rw [Finset.sum_range_succ _ (n + 1)]
    refine congrArg (_ + ·) ?_
    unfold blockAt
    rw [dif_pos h]

/-- The sum of the 64 blocks' losses. -/
def total (c : Dev nD) : EReal := ∑ s ∈ Finset.range 64, blockAt m c s

/-- The result array of the call: every lane at the total. -/
abbrev accFinal (c : Dev nD) : Buf (Elt Ideal) ((c : Thread nD τ).loc main_v2) := fun _ => total m c

/-- The last grid point. -/
abbrev tLast : Fin cfg0.N := ⟨63, by rw [show cfg0.N = 64 from N_0]; decide⟩

/-- The one write-back, at the last point, writes the total: the block at (0, 0) is the whole array. -/
theorem flushed_eq (c : Dev nD) (t : Fin cfg0.N) (hf : (cfg0.win 2).flush t = true) :
    (dats m 0 c).flushed 2 t = ((cfg0.win 2).blk t).view.read (Elt Ideal) (accFinal m c) := by
  have hN : cfg0.N = 64 := N_0
  have h3 : t.val = 63 := by have := (flush0_2 t).mp hf; have := t.isLt; omega
  obtain rfl : t = tLast := Fin.ext h3
  show (cfg0.win 2).cut (grid0.coords tLast) ((dats m 0 c).after 2 tLast) = _
  rw [after0_2, outsAt_eq]
  have hz' : (fun a => win0_2.index tLast a * main_v2.ty.shape.size a) = fun _ => 0 :=
    funext fun a => by fin_cases a <;> decide
  exact (Memref.read_access_unit_zero (Elt Ideal) main_v2 hz' (fun a => by rw [congrFun hz' a]; simp) (accFinal m c)).symm

/-- So the result array ends holding the total in every lane. -/
theorem final_o (c : Dev nD) : (dats m 0 c).arrAt 2 cfg0.N = accFinal m c :=
  (dats m 0 c).arrAt_eq_of_cover 2 (accFinal m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 128 from by decide +kernel]
        omega⟩

/-- The program's result: the total divided by the number of rows (the f32 word of 4194304). -/
def result (c : Dev nD) : Buf (Elt Ideal) ((c : Thread nD τ).loc main_v5) :=
  fun _ => Ideal.div (total m c) (Ideal.ofBits .f32 0x4A800000#32)

/-- The host's last lines — entry (0, 0) of the result array, its unit axes dropped, divided by the row count. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hfin : Pipeline.withArrays (cfgs 0).spec c (V0 m c) (fun w => (dats m 0 c).arrAt w (cfgs 0).N)
      (Proc.tc.devRef main_v2) = accFinal m c :=
    (Pipeline.withArrays_arr spec0 launch0.win.arr_inj c _ _ 2).trans (final_o m c)
  rw [hfin]
  funext j
  rfl

/-- The run, read: the result at the total over the row count, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.SumValue

end
-- ==== Proof.KernelArgs.lean ====
/-
  The kernel's result in terms of the two arguments.

  The host transposes each [4194304, 3] argument to [3, 4194304] before the call, and grid point t takes the
  [3, 65536] block at block index (0, t).  So entry (k, j) of the block at point t is the argument's entry
  (65536·t + j, k): row k of the block is column k of the rows 65536·t … 65536·t + 65535.  The 64 blocks tile
  the 4194304 rows, and the total of the blocks' losses is the sum over all rows of the row loss.
-/
import proofs.«149306_j12687333392690_1_alg».proof.Proof.KernelSum
import Idealize.ShloMosaic.Lib.Pipeline.Value
import Idealize.ShloMosaic.Lib.StableHlo.Run
import Idealize.ShloMosaic.Lib.ValueLayout
import Idealize.ShloMosaic.Lib.Tactic

noncomputable section

open scoped BigOperators

namespace Cert.KernelIdeal.ArgValue

open Idealize.ShloMosaic Idealize.ShloMosaic.TcCoe Idealize.ShloMosaic.ValueIdx Idealize.SL.Sem
open Cert.KernelIdeal Cert.KernelIdeal.Gen Cert.KernelIdeal.PointValue Cert.KernelIdeal.SumValue Cert.RowLoss
open Cert.LibBlockSum

variable (m : (ℓ : Loc nD τ sig) → Buf (Elt Ideal) ℓ)

/-- 64 blocks of 65536 rows are the 4194304 rows. -/
theorem h64 : 64 * 65536 = 4194304 := by norm_num

/-- The region finds the first operand's array at the transpose of the first argument, -/
theorem V_v0 (c : Dev nD) : (V m c main_v0 : S3x4194304.Idx → EReal)
    = transpose S3x4194304 [1, 0] (m ((c : Thread nD τ).loc main_arg0)) transposes_S4194304x3_S3x4194304_1_0 := by
  show StableHlo.after hostOps0 (fun b => m (c, b)) (Proc.devRef .tc main_v0) = _
  after_results

/-- and the second operand's at the transpose of the second. -/
theorem V_v1 (c : Dev nD) : (V m c main_v1 : S3x4194304.Idx → EReal)
    = transpose S3x4194304 [1, 0] (m ((c : Thread nD τ).loc main_arg1)) transposes_S4194304x3_S3x4194304_1_0 := by
  show StableHlo.after hostOps0 (fun b => m (c, b)) (Proc.devRef .tc main_v1) = _
  after_results

/-- Both input windows take block (0, t) at grid point t. -/
theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)

/-- Entry (k, j) of the first window's block at point t is the first argument's entry (65536·t + j, k). -/
theorem iblk0_apply (c : Dev nD) (t : Fin 64) (ht : t.val < cfg0.N) (k : Fin 3) (j : Fin 65536) :
    (iblk m c 0 ⟨t.val, ht⟩ : Vec Ideal S3x65536 .f32) (ix2 k j)
      = m ((c : Thread nD τ).loc main_arg0) (ix2 (blockIdx h64 t j) k) := by
  have hi0 : win0_0.index ⟨t.val, ht⟩ 0 = 0 := (idx0 ⟨t.val, ht⟩).1
  have hi1 : win0_0.index ⟨t.val, ht⟩ 1 = t.val := (idx0 ⟨t.val, ht⟩).2
  unfold iblk
  rw [View.read_apply]
  show V m c main_v0 _ = _
  rw [V_v0]
  refine transpose_apply _ _ _ _ (ix2 (blockIdx h64 t j) k) fun b => ?_
  match b with
  | ⟨0, _⟩ => show k.val = win0_0.index ⟨t.val, ht⟩ 0 * 3 + 1 * k.val; rw [hi0]; omega
  | ⟨1, _⟩ => show t.val * 65536 + j.val = win0_0.index ⟨t.val, ht⟩ 1 * 65536 + 1 * j.val; rw [hi1]; omega

/-- Entry (k, j) of the second window's block at point t is the second argument's entry (65536·t + j, k). -/
theorem iblk1_apply (c : Dev nD) (t : Fin 64) (ht : t.val < cfg0.N) (k : Fin 3) (j : Fin 65536) :
    (iblk m c 1 ⟨t.val, ht⟩ : Vec Ideal S3x65536 .f32) (ix2 k j)
      = m ((c : Thread nD τ).loc main_arg1) (ix2 (blockIdx h64 t j) k) := by
  have hi0 : win0_1.index ⟨t.val, ht⟩ 0 = 0 := (idx1 ⟨t.val, ht⟩).1
  have hi1 : win0_1.index ⟨t.val, ht⟩ 1 = t.val := (idx1 ⟨t.val, ht⟩).2
  unfold iblk
  rw [View.read_apply]
  show V m c main_v1 _ = _
  rw [V_v1]
  refine transpose_apply _ _ _ _ (ix2 (blockIdx h64 t j) k) fun b => ?_
  match b with
  | ⟨0, _⟩ => show k.val = win0_1.index ⟨t.val, ht⟩ 0 * 3 + 1 * k.val; rw [hi0]; omega
  | ⟨1, _⟩ => show t.val * 65536 + j.val = win0_1.index ⟨t.val, ht⟩ 1 * 65536 + 1 * j.val; rw [hi1]; omega

/-- The row loss of row `r` of two [4194304, 3] arrays. -/
def rowOf (A0 A1 : (⟨2, ![4194304, 3]⟩ : Shape).Idx → EReal) (r : Fin 4194304) : EReal :=
  rowLoss (A0 (ix2 r 0)) (A0 (ix2 r 1)) (A0 (ix2 r 2)) (A1 (ix2 r 0)) (A1 (ix2 r 1)) (A1 (ix2 r 2))

/-- Block t's loss is the sum of the row losses of rows 65536·t … 65536·t + 65535 of the arguments. -/
theorem blockAt_eq (c : Dev nD) (t : Fin 64) :
    blockAt m c t.val = ∑ j : Fin 65536,
      rowOf (m ((c : Thread nD τ).loc main_arg0)) (m ((c : Thread nD τ).loc main_arg1)) (blockIdx h64 t j) := by
  have ht : t.val < cfg0.N := by rw [show cfg0.N = 64 from N_0]; exact t.isLt
  unfold blockAt
  rw [dif_pos ht]
  unfold blockLoss rowOf
  refine Finset.sum_congr rfl fun j _ => ?_
  rw [iblk0_apply m c t ht 0 j, iblk0_apply m c t ht 1 j, iblk0_apply m c t ht 2 j,
    iblk1_apply m c t ht 0 j, iblk1_apply m c t ht 1 j, iblk1_apply m c t ht 2 j]

/-- The total of the 64 blocks' losses is the sum over all rows of the row loss. -/
theorem total_eq (c : Dev nD) :
    total m c = ∑ r : Fin 4194304,
      rowOf (m ((c : Thread nD τ).loc main_arg0)) (m ((c : Thread nD τ).loc main_arg1)) r := by
  unfold total
  rw [Finset.sum_range, sum_blocks h64]
  exact Finset.sum_congr rfl fun t _ => blockAt_eq m c t

end Cert.KernelIdeal.ArgValue

end
-- ==== Proof.RefRow.lean ====
/-
  The reference's arithmetic, read one row at a time.

  Every array of the reference between its column slices and its final sum has one entry per row, and every
  operation between them is pointwise, so entry r of each intermediate array is the matching stage of one
  row's loss, evaluated at entry r of the six column arrays.
-/
import proofs.«149306_j12687333392690_1_alg».proof.Proof.Gen.ReferenceIdeal.Run
import proofs.«149306_j12687333392690_1_alg».proof.Proof.RowLoss

noncomputable section

namespace Cert.ReferenceIdeal.RowValue

open Idealize.ShloMosaic Idealize.ShloMosaic.TcCoe Idealize.ShloMosaic.StableHlo
open Cert.ReferenceIdeal Cert.ReferenceIdeal.Gen Cert.ReferenceIdeal.Value Cert.RowLoss

variable (V0 : Valuation τ sig (Elt Ideal)) (r : S4194304.Idx)

/-! ### Stage 1: the entries of E = exp(S₀), its mean and its half-gap -/

theorem v27_apply : res_main_v27 V0 r = e00 (res_main_v1 V0 r) (res_main_v3 V0 r) (res_main_v5 V0 r) := rfl
theorem v28_apply : res_main_v28 V0 r = e01 (res_main_v1 V0 r) (res_main_v3 V0 r) (res_main_v5 V0 r) := rfl
theorem v31_apply : res_main_v31 V0 r = e11 (res_main_v1 V0 r) (res_main_v3 V0 r) (res_main_v5 V0 r) := rfl
theorem v34_apply : res_main_v34 V0 r = mid (res_main_v27 V0 r) (res_main_v31 V0 r) := rfl
theorem v41_apply : res_main_v41 V0 r = disc (res_main_v27 V0 r) (res_main_v28 V0 r) (res_main_v31 V0 r) := rfl

/-! ### Stage 2: T = E^(−1/2), the product P = T·(M·T) and its mean -/

theorem v57_apply : res_main_v57 V0 r = t00 (res_main_v27 V0 r) (res_main_v34 V0 r) (res_main_v41 V0 r) := by
  unfold res_main_v57 res_main_v54 res_main_v46 res_main_v43 res_main_v42
  generalize res_main_v27 V0 = a
  generalize res_main_v34 V0 = m
  generalize res_main_v41 V0 = d
  rfl
theorem v58_apply : res_main_v58 V0 r = t01 (res_main_v28 V0 r) (res_main_v34 V0 r) (res_main_v41 V0 r) := by
  unfold res_main_v58 res_main_v54 res_main_v46 res_main_v43 res_main_v42
  generalize res_main_v28 V0 = b
  generalize res_main_v34 V0 = m
  generalize res_main_v41 V0 = d
  rfl
theorem v61_apply : res_main_v61 V0 r = t11 (res_main_v31 V0 r) (res_main_v34 V0 r) (res_main_v41 V0 r) := by
  unfold res_main_v61 res_main_v54 res_main_v46 res_main_v43 res_main_v42
  generalize res_main_v31 V0 = a
  generalize res_main_v34 V0 = m
  generalize res_main_v41 V0 = d
  rfl

theorem v82_apply : res_main_v82 V0 r
    = p00 (res_main_v57 V0 r) (res_main_v58 V0 r) (res_main_v63 V0 r) (res_main_v65 V0 r) (res_main_v67 V0 r) := rfl
theorem v85_apply : res_main_v85 V0 r
    = p01 (res_main_v57 V0 r) (res_main_v58 V0 r) (res_main_v61 V0 r)
        (res_main_v63 V0 r) (res_main_v65 V0 r) (res_main_v67 V0 r) := rfl
theorem v88_apply : res_main_v88 V0 r
    = p11 (res_main_v58 V0 r) (res_main_v61 V0 r) (res_main_v63 V0 r) (res_main_v65 V0 r) (res_main_v67 V0 r) := rfl
theorem v91_apply : res_main_v91 V0 r = mid (res_main_v82 V0 r) (res_main_v88 V0 r) := rfl

/-! ### Stage 3: S = log P and the row's loss ‖S‖² -/

/-- The array the reference sums: one row's loss per entry. -/
def lossArr : FVec Ideal S4194304 .f32 :=
  addf (addf (mulf (res_main_v110 V0) (res_main_v110 V0))
      (mulf (broadcastInDim S4194304 ![] bcast_S_S4194304 (constant S_ .f32 0x40000000#32))
        (mulf (res_main_v111 V0) (res_main_v111 V0))))
    (mulf (res_main_v114 V0) (res_main_v114 V0))

theorem lossArr_apply : lossArr V0 r
    = normSq (res_main_v82 V0 r) (res_main_v85 V0 r) (res_main_v88 V0 r) (res_main_v91 V0 r) :=
  (normSq_assoc _ _ _ _).symm ▸ rfl

end Cert.ReferenceIdeal.RowValue

end
-- ==== Proof.RefTotal.lean ====
/-
  The reference's result: the mean of the row losses.

  Column k of an argument, as the reference slices and reshapes it, reads at row r the argument's entry (r, k).
  Entry r of the array the reference sums is the row loss of the six entries of row r, so its result is the
  initial zero plus the sum over the rows, divided by the number of rows.
-/
import proofs.«149306_j12687333392690_1_alg».proof.Proof.RefRow
import proofs.«149306_j12687333392690_1_alg».proof.Proof.LibBlockSum
import Idealize.ShloMosaic.Lib.Pipeline.Value

noncomputable section

open scoped BigOperators

namespace Cert.ReferenceIdeal.RowValue

open Idealize.ShloMosaic Idealize.ShloMosaic.TcCoe Idealize.ShloMosaic.ValueIdx Idealize.ShloMosaic.StableHlo
open Cert.ReferenceIdeal Cert.ReferenceIdeal.Gen Cert.ReferenceIdeal.Value Cert.RowLoss Cert.LibBlockSum

/-- Column `k` of a [4194304, 3] array, sliced as a [4194304, 1] array and reshaped to rank 1, reads at row `r` the
    array's entry (r, k). -/
theorem col_apply (X : S4194304x3.Idx → EReal) (k : Fin 3) (off : Fin 2 → Nat) (hoff : off = ![0, k.val])
    (h : S4194304x3.Slices off S4194304x1) (h' : S4194304x1.ShapeCasts S4194304) (r : Fin 4194304) :
    shapeCast S4194304 (extractStridedSlice S4194304x1 off X h) h' (ix1 r) = X (ix2 r k) := by
  subst hoff
  rw [shapeCast_apply _ h' (ix1 r) (ix2 r (0 : Fin 1)) (by
    rw [Shape.rowMajor_val_two, Shape.rowMajor_val_one]
    show r.val * 1 + 0 = r.val
    omega)]
  exact slice2_axis1_apply k.val X h r (0 : Fin 1) k (by simp)

variable (V0 : Valuation τ sig (Elt Ideal))

/-- Entry `r` of the summed array is the row loss of row `r` of the two arguments. -/
theorem lossArr_row (r : Fin 4194304) :
    lossArr V0 (ix1 r)
      = rowLoss (V0 (Proc.devRef .tc main_arg0) (ix2 r 0)) (V0 (Proc.devRef .tc main_arg0) (ix2 r 1))
          (V0 (Proc.devRef .tc main_arg0) (ix2 r 2)) (V0 (Proc.devRef .tc main_arg1) (ix2 r 0))
          (V0 (Proc.devRef .tc main_arg1) (ix2 r 1)) (V0 (Proc.devRef .tc main_arg1) (ix2 r 2)) := by
  have c1 : res_main_v1 V0 (ix1 r) = V0 (Proc.devRef .tc main_arg0) (ix2 r 0) := col_apply _ 0 _ rfl _ _ r
  have c3 : res_main_v3 V0 (ix1 r) = V0 (Proc.devRef .tc main_arg0) (ix2 r 1) := col_apply _ 1 _ rfl _ _ r
  have c5 : res_main_v5 V0 (ix1 r) = V0 (Proc.devRef .tc main_arg0) (ix2 r 2) := col_apply _ 2 _ rfl _ _ r
  have c63 : res_main_v63 V0 (ix1 r) = V0 (Proc.devRef .tc main_arg1) (ix2 r 0) := col_apply _ 0 _ rfl _ _ r
  have c65 : res_main_v65 V0 (ix1 r) = V0 (Proc.devRef .tc main_arg1) (ix2 r 1) := col_apply _ 1 _ rfl _ _ r
  have c67 : res_main_v67 V0 (ix1 r) = V0 (Proc.devRef .tc main_arg1) (ix2 r 2) := col_apply _ 2 _ rfl _ _ r
  simp only [lossArr_apply, v91_apply, v82_apply, v85_apply, v88_apply, v57_apply, v58_apply, v61_apply, v34_apply,
    v41_apply, v27_apply, v28_apply, v31_apply, rowLoss, c1, c3, c5, c63, c65, c67]

/-- The reference's result: zero plus the sum of the row losses, divided by the row count's f32 word. -/
theorem result_eq :
    Host.divf (Host.reduceAdd (lossArr V0) (constant S_ .f32 0x00000000#32) reducesTo_S4194304_S_d0 h_S_)
        (constant S_ .f32 0x4A800000#32)
      = fun _ => Ideal.div (∑ r : Fin 4194304,
          rowLoss (V0 (Proc.devRef .tc main_arg0) (ix2 r 0)) (V0 (Proc.devRef .tc main_arg0) (ix2 r 1))
            (V0 (Proc.devRef .tc main_arg0) (ix2 r 2)) (V0 (Proc.devRef .tc main_arg1) (ix2 r 0))
            (V0 (Proc.devRef .tc main_arg1) (ix2 r 1)) (V0 (Proc.devRef .tc main_arg1) (ix2 r 2)))
          (Ideal.ofBits .f32 0x4A800000#32) := by
  funext j
  simp only [Host.divf, Host.reduceAdd, constant, Ideal.hostDivf_def, Ideal.hostReduceAdd_def, Ideal.ofBits_def]
  refine congrArg (Ideal.div · (Ideal.ofBits .f32 0x4A800000#32)) ?_
  refine (hostSum_eq (n := 4194304) (lossArr V0) _ reducesTo_S4194304_S_d0 j).trans ?_
  rw [Ideal.ofBits_zero_f32, zero_add]
  exact Finset.sum_congr rfl fun r _ => lossArr_row V0 r

end Cert.ReferenceIdeal.RowValue

end
-- ==== Proof.lean ====
/-
  The mean squared log-Euclidean distance between 2×2 symmetric matrices, accumulated over a grid against jnp.mean.

  Each of the 4194304 rows holds a symmetric 2×2 matrix S₀ (the prediction) and a symmetric positive matrix M
  (the target), three entries each.  A scalar function f is applied to a symmetric 2×2 matrix through its two
  eigenvalues in closed form; the row's loss is ‖log(T·M·T)‖² with T = exp(S₀)^(−1/2) (Proof/RowLoss.lean).

  The kernel transposes both arguments, walks 64 blocks of 65536 rows, computes the row losses of a block lane by
  lane, sums the lanes and adds the sum into a [1, 128] accumulator that is zeroed at the first block and written
  back after the last; the host then divides entry (0, 0) by the row count.  The reference slices the columns,
  computes the row losses of all rows at once, sums them from zero and divides by the row count.

  Over the extended reals both are the sum over all rows of the row loss divided by 4194304:
  * lane j of the kernel's intermediate vectors and entry r of the reference's intermediate arrays are the same
    stages of the row loss of their six inputs (Proof/KernelRow.lean, Proof/RefRow.lean) — the two programs
    spell the same operations in the same order, except that the kernel groups (2·s)·s where the reference
    groups 2·(s·s), equal by associativity of the product;
  * the kernel's accumulator after point n holds the sum of the losses of blocks 0 … n (Proof/KernelPoint.lean,
    Proof/KernelSum.lean), a block's loss being the sum over its rows;
  * block t of a transposed argument holds rows 65536·t … 65536·t + 65535 of the argument, and the 64 blocks
    tile the rows (Proof/KernelArgs.lean, Proof/LibBlockSum.lean);
  * the reference's sum is zero plus the sum over all rows (Proof/RefTotal.lean).
  Only commutativity and associativity of sums and associativity of products are used, so the finiteness of the
  inputs plays no part.  The idealization rewrote nothing, so the kernel is its own idealization.
-/
import proofs.«149306_j12687333392690_1_alg».proof.Defs
import proofs.«149306_j12687333392690_1_alg».proof.Proof.Gen.Kernel
import proofs.«149306_j12687333392690_1_alg».proof.Proof.Gen.Kernel.Skeleton
import proofs.«149306_j12687333392690_1_alg».proof.Proof.Gen.Kernel.Launch
import proofs.«149306_j12687333392690_1_alg».proof.Proof.Gen.Kernel.Points
import proofs.«149306_j12687333392690_1_alg».proof.Proof.Gen.Kernel.Frame
import proofs.«149306_j12687333392690_1_alg».proof.Proof.Gen.KernelIdeal
import proofs.«149306_j12687333392690_1_alg».proof.Proof.Gen.KernelIdeal.Skeleton
import proofs.«149306_j12687333392690_1_alg».proof.Proof.Gen.KernelIdeal.Launch
import proofs.«149306_j12687333392690_1_alg».proof.Proof.Gen.KernelIdeal.Points
import proofs.«149306_j12687333392690_1_alg».proof.Proof.Gen.KernelIdeal.Frame
import proofs.«149306_j12687333392690_1_alg».proof.Proof.Gen.ReferenceIdeal
import proofs.«149306_j12687333392690_1_alg».proof.Proof.Gen.ReferenceIdeal.Run
import proofs.«149306_j12687333392690_1_alg».proof.Proof.Gen.Pre_finite_inputs
import proofs.«149306_j12687333392690_1_alg».proof.Proof.KernelArgs
import proofs.«149306_j12687333392690_1_alg».proof.Proof.RefTotal
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the sum over all rows of the row loss, divided by the row count. -/
theorem algebraic : Cert.algebraic_KernelIdeal_ReferenceIdeal := by
  intro m ρ m' ρ' _ hagree
  refine ⟨fun c => Cert.KernelIdeal.SumValue.result m c, Cert.KernelIdeal.SumValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RowValue.result_eq (StableHlo.launchContents m' c)).trans ?_
  have e0 : StableHlo.launchContents m' c (Proc.devRef .tc Cert.ReferenceIdeal.main_arg0)
      = m ((c.tc : Thread Cert.KernelIdeal.nD Cert.KernelIdeal.τ).loc Cert.KernelIdeal.main_arg0) := (hagree c).1
  have e1 : StableHlo.launchContents m' c (Proc.devRef .tc Cert.ReferenceIdeal.main_arg1)
      = m ((c.tc : Thread Cert.KernelIdeal.nD Cert.KernelIdeal.τ).loc Cert.KernelIdeal.main_arg1) := (hagree c).2
  rw [e0, e1]
  show _ = Cert.KernelIdeal.SumValue.result m c
  unfold Cert.KernelIdeal.SumValue.result
  rw [Cert.KernelIdeal.ArgValue.total_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
